-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .i32⟩
  | .hbm, ⟨1, _⟩ => ⟨S4096x4096, .i32⟩
  | .hbm, ⟨2, _⟩ => ⟨S4096x4096, .f32⟩
  | .local _ .vmem, ⟨0, _⟩ => ⟨S1024x512, .i32⟩
  | .local _ .vmem, ⟨1, _⟩ => ⟨S1024x512, .i32⟩
  | .local _ .vmem, ⟨2, _⟩ => ⟨S512x1024, .i32⟩
  | .local _ .vmem, ⟨3, _⟩ => ⟨S512x1024, .i32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .i32 = 32 ∨ (Rect.block (s := S4096x4096) S1024x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .i32⟩
  | .hbm, ⟨1, _⟩ => ⟨S4096x4096, .i32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | _, _ => ⟨S4096x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  The specification both programs meet, as one function of the two stored integer arrays, over the extended reals.

  The left array `X` is dequantized with zero point −66 and scale 0.03, the right array `Y` with zero point 160 and
  scale 0.025: an entry `q` (any 32-bit integer, read signed and exactly; no range is assumed) becomes
  `(q − zero_point) · scale`, the two constants the binary f32 values both programs spell (the same four words on both
  sides, so they are never evaluated). The result at `(r, c)` is `∑_{K < 4096} dqL X[r, K] · dqR Y[K, c]`.

  Arrays are read through an accessor total in its natural coordinates (taken modulo 4096): the sums can then be
  written over ranges of naturals and re-indexed without carrying bound proofs.
-/
import Idealize.ShloMosaic.PureOps.Ideal
import Idealize.ShloMosaic.Lib.ValueIdx

noncomputable section

namespace Cert.QMatmul

open Idealize.ShloMosaic Idealize.ShloMosaic.ValueIdx Finset

/-- The index space of a [4096, 4096] array. -/
abbrev Idx4096 : Type := (⟨2, ![4096, 4096]⟩ : Shape).Idx

/-- One left entry dequantized: `(x − (−66)) · 0.03`. -/
def dqL (w : BitVec 32) : Ideal .f32 :=
  FloatOps.mulf (FloatOps.subf (FloatOps.sitofp (F := Ideal) .f32 w) (FloatOps.ofBits .f32 0xC2840000#32))
    (FloatOps.ofBits .f32 0x3CF5C28F#32)

/-- One right entry dequantized: `(y − 160) · 0.025`. -/
def dqR (w : BitVec 32) : Ideal .f32 :=
  FloatOps.mulf (FloatOps.subf (FloatOps.sitofp (F := Ideal) .f32 w) (FloatOps.ofBits .f32 0x43200000#32))
    (FloatOps.ofBits .f32 0x3CCCCCCD#32)

/-- Entry `(r, c)` of a [4096, 4096] array, the coordinates taken modulo 4096. -/
def at2 {α : Type} (A : Idx4096 → α) (r c : ℕ) : α :=
  A (ix2 (⟨r % 4096, Nat.mod_lt _ (by decide)⟩ : Fin 4096) (⟨c % 4096, Nat.mod_lt _ (by decide)⟩ : Fin 4096))

/-- At an index's own coordinates the accessor reads the array there. -/
theorem at2_idx {α : Type} (A : Idx4096 → α) (i : Idx4096) (r c : ℕ) (hr : r = (i 0).val) (hc : c = (i 1).val) :
    at2 A r c = A i := by
  subst hr hc
  unfold at2
  congr 1
  funext a
  match a with
  | ⟨0, _⟩ => exact Fin.ext (Nat.mod_eq_of_lt (i 0).isLt)
  | ⟨1, _⟩ => exact Fin.ext (Nat.mod_eq_of_lt (i 1).isLt)

/-- The product the contraction index `K` contributes to the result at row `r`, column `c`. -/
def term (X Y : Idx4096 → BitVec 32) (r c K : ℕ) : Ideal .f32 := dqL (at2 X r K) * dqR (at2 Y K c)

/-- THE RESULT: at `(r, c)`, the sum over the 4096 contraction indices of the dequantized products. -/
def G (X Y : Idx4096 → BitVec 32) : Idx4096 → Ideal .f32 :=
  fun i => ∑ K ∈ range 4096, term X Y (i 0).val (i 1).val K

end Cert.QMatmul

end
-- ==== Proof.LibBlockSum.lean ====
/-
  GENERAL LEMMAS (Mathlib only; no program is imported).

  A sum over the first `n * b` naturals taken block by block: the index is `b * s + k` with `s < n` the block and
  `k < b` the place inside it. Only commutativity and associativity of `+` are used, so the law holds in every
  commutative additive monoid, the extended reals (with their two infinities) included. It is what joins a
  contraction accumulated in `n` blocks of `b` places with the same contraction taken whole.
-/
import Mathlib.Algebra.BigOperators.Fin

namespace Cert.BlockSum

open Finset

/-- `∑_{s < n} ∑_{k < b} f (b·s + k) = ∑_{K < n·b} f K`: by induction on the number of blocks, the last block split off
    the end of the range. -/
theorem sum_range_blocks {M : Type*} [AddCommMonoid M] (b : ℕ) (f : ℕ → M) :
    ∀ n : ℕ, ∑ s ∈ range n, ∑ k ∈ range b, f (b * s + k) = ∑ K ∈ range (n * b), f K
  | 0 => by simp
  | n + 1 => by
    rw [sum_range_succ, sum_range_blocks b f n, Nat.succ_mul, sum_range_add, Nat.mul_comm b n]

/-- A sum over `Fin n` of a function of the index's value is the sum over the first `n` naturals. -/
theorem sum_fin_eq_range {M : Type*} [AddCommMonoid M] (n : ℕ) (f : ℕ → M) :
    ∑ k : Fin n, f k.val = ∑ k ∈ range n, f k :=
  Fin.sum_univ_eq_sum_range f n

end Cert.BlockSum
-- ==== Proof.RefIsG.lean ====
/-
  The reference's result is the specification. Index by index the host's `dot_general` over the extended reals is the
  sum over the 4096 contraction indices of the two dequantized operands' products, the left operand read at `(r, K)`
  and the right at `(K, c)`: exactly `Cert.QMatmul.G` of the two integer arrays.
-/
import proofs.«151241_j18940805775747_1_alg».proof.Proof.Gen.ReferenceIdeal.Read
import proofs.«151241_j18940805775747_1_alg».proof.Proof.Spec
import proofs.«151241_j18940805775747_1_alg».proof.Proof.LibBlockSum

noncomputable section

namespace Cert.ReferenceIdeal.RefValue

open Cert.ReferenceIdeal Cert.ReferenceIdeal.Read Cert.QMatmul Idealize.ShloMosaic

/-- The last stage of the reference, read at every index, is `G`. -/
theorem ref_eq_G (x0 x1 : (⟨S4096x4096, .i32⟩ : BufTy).Contents (Elt Ideal)) :
    val_main_v10 (F := Ideal) x0 x1 = G x0 x1 := by
  funext i
  rw [val_main_v10_apply]
  unfold G
  rw [← Cert.BlockSum.sum_fin_eq_range 4096 (fun K => term x0 x1 (i 0).val (i 1).val K)]
  refine Finset.sum_congr rfl fun k _ => ?_
  rw [val_main_v4_apply, val_main_v2_apply, val_main_v0_apply, val_main_v1_apply, val_main_cst_apply,
    val_main_v3_apply, val_main_cst_0_apply, val_main_v9_apply, val_main_v7_apply, val_main_v5_apply,
    val_main_v6_apply, val_main_cst_1_apply, val_main_v8_apply, val_main_cst_2_apply]
  unfold term dqL dqR
  rw [at2_idx x0 (lidx_main_v10 i k) (i 0).val k.val rfl rfl, at2_idx x1 (ridx_main_v10 i k) k.val (i 1).val rfl rfl]

end Cert.ReferenceIdeal.RefValue

end
-- ==== Proof.Pieces.lean ====
/-
  What each control case of the kernel body leaves behind, as a value. The body has three cases, by the position `k`
  of the grid point on the contraction axis: the first point (`k = 0`) stores the zero block into the accumulator and
  then adds its block product; a middle point adds its block product to what the point before left; the last point
  (`k = 7`) does the same and copies the accumulator into the output block. In every case the accumulator ends at the
  accumulating store's payload over the point's two input blocks and the accumulator's contents before it — the zero
  block in the first case —, and in the last case the output block ends at that same value. The stores cover their
  buffers whole, so a buffer read back is the last store's payload; a load of a whole buffer reads its contents.
-/
import proofs.«151241_j18940805775747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- FIRST POINT of a run: the accumulator ends at the step over the zero block. -/
theorem acc_first (c : Dev nD) (i : grid0.Coords) (arg3 : Memref sig .tc .vmem S1024x512 .i32) (harg3 : arg3.IsWhole) (arg4 : Memref sig .tc .vmem S512x1024 .i32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x512 .i32) (x1 : Vec F S512x1024 .i32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz, View.ld_unit_zero (S := S512x1024) hz, View.ld_unit_zero (S := S1024x1024) hz]

/-- MIDDLE POINT: the accumulator ends at the step over what it held. -/
theorem acc_middle (c : Dev nD) (i : grid0.Coords) (arg3 : Memref sig .tc .vmem S1024x512 .i32) (harg3 : arg3.IsWhole) (arg4 : Memref sig .tc .vmem S512x1024 .i32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x512 .i32) (x1 : Vec F S512x1024 .i32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread, View.ld_unit_zero (S := S1024x512) hz, View.ld_unit_zero (S := S512x1024) hz, View.ld_unit_zero (S := S1024x1024) hz]

/-- LAST POINT: the accumulator ends at the step over what it held. -/
theorem acc_last (c : Dev nD) (i : grid0.Coords) (arg3 : Memref sig .tc .vmem S1024x512 .i32) (harg3 : arg3.IsWhole) (arg4 : Memref sig .tc .vmem S512x1024 .i32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .i32) (x1 : Vec F S512x1024 .i32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x512) hz, View.ld_unit_zero (S := S512x1024) hz, View.ld_unit_zero (S := S1024x1024) hz]

/-- LAST POINT: the output block ends at the same value as the accumulator, which is read back after the step and
    stored whole into the block. -/
theorem out_last (c : Dev nD) (i : grid0.Coords) (arg3 : Memref sig .tc .vmem S1024x512 .i32) (harg3 : arg3.IsWhole) (arg4 : Memref sig .tc .vmem S512x1024 .i32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .i32) (x1 : Vec F S512x1024 .i32) (xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x512) hz, View.ld_unit_zero (S := S512x1024) hz, View.ld_unit_zero (S := S1024x1024) hz]

end Cert.KernelIdeal.Pieces

end
-- ==== Proof.Payload.lean ====
/-
  The kernel body's arithmetic at an index, over the extended reals. One grid point loads a [1024, 512] block of the
  left array and a [512, 1024] block of the right array, dequantizes both, and adds their product to the accumulator:
  at `(p, q)` the stored value is the accumulator there plus `∑_{k < 512} dqL x0[p, k] · dqR x1[k, q]`. The change of
  format before the matrix unit is the identity on the extended reals, and the matrix unit's zero accumulator adds
  nothing. The reset stores the zero block.
-/
import proofs.«151241_j18940805775747_1_alg».proof.Proof.Gen.KernelIdeal.Skeleton
import proofs.«151241_j18940805775747_1_alg».proof.Proof.Spec
import Idealize.ShloMosaic.PureOps.Ideal.Laws
import Idealize.ShloMosaic.Lib.Pipeline.Value
import Idealize.ShloMosaic.Lib.ValueIdx

noncomputable section

namespace Cert.KernelIdeal.Payload

open Cert.KernelIdeal Cert.KernelIdeal.Gen Cert.QMatmul Idealize.ShloMosaic Idealize.ShloMosaic.ValueIdx

/-- The product of one pair of dequantized blocks at `(p, q)`: the sum over the block's 512 contraction places. -/
def blockDot (x0 : Vec Ideal S1024x512 .i32) (x1 : Vec Ideal S512x1024 .i32) (j : S1024x1024.Idx) : Ideal .f32 :=
  ∑ k : Fin 512, dqL (x0 (ix2 (j 0) k)) * dqR (x1 (ix2 k (j 1)))

/-- The reset's payload is the zero block. -/
theorem pay1_apply (j : S1024x1024.Idx) : k0_pay1 (F := Ideal) j = 0 := by
  unfold k0_pay1
  rw [shapeCast_self]
  show Ideal.ofBits .f32 0x00000000#32 = 0
  exact Ideal.ofBits_zero_f32

theorem lhs0 (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs1 (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
theorem rhs0 (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
theorem rhs1 (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The matrix unit's product of two blocks into the zero accumulator, at an index, is the sum over the 512
    contraction places of the operands' products, the left read at `(p, k)` and the right at `(k, q)`. -/
theorem matmul_zero_apply (l : FVec Ideal S1024x512 .bf16) (r : FVec Ideal S512x1024 .bf16) (j : S1024x1024.Idx) :
    matmul dot_S1024x512_S512x1024_S1024x1024_1_0_0_1_n_n none l r (constant S1024x1024 .f32 0x00000000#32) j
      = ∑ k : Fin 512, l (ix2 (j 0) k) * r (ix2 k (j 1)) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx j ((ValueIdx.contrEquiv1 dot_S1024x512_S512x1024_S1024x1024_1_0_0_1_n_n 512 rfl rfl).symm k) = ix2 (j 0) k := funext fun a => Fin.ext (by
    match a with
    | ⟨0, _⟩ => exact lhs0 _ _
    | ⟨1, _⟩ => exact (lhs1 _ _).trans hk)
  have er : dot_S1024x512_S512x1024_S1024x1024_1_0_0_1_n_n.rhsIdx j ((ValueIdx.contrEquiv1 dot_S1024x512_S512x1024_S1024x1024_1_0_0_1_n_n 512 rfl rfl).symm k) = ix2 k (j 1) := funext fun a => Fin.ext (by
    match a with
    | ⟨0, _⟩ => exact (rhs0 _ _).trans hk
    | ⟨1, _⟩ => exact rhs1 _ _)
  rw [el, er]
  rfl

/-- THE STEP: the accumulating store's payload at an index is the accumulator there plus the block product. -/
theorem pay2_apply (x0 : Vec Ideal S1024x512 .i32) (x1 : Vec Ideal S512x1024 .i32) (acc : Vec Ideal S1024x1024 .f32)
    (j : S1024x1024.Idx) : k0_pay2 (F := Ideal) x0 x1 acc j = acc j + blockDot x0 x1 j := by
  unfold k0_pay2
  rw [shapeCast_self, addf_apply, matmul_zero_apply]
  rfl

end Cert.KernelIdeal.Payload

end
-- ==== Proof.Fold.lean ====
/-
  The accumulator across a run of grid points, and the input blocks as parts of the argument arrays.

  The grid is 4 × 4 × 8 with the contraction axis innermost: point `t` works on row block `t / 32`, column block
  `(t / 8) % 4` and contraction block `t % 8`. The left window's block at `t` is rows `1024·(t / 32) …`, columns
  `512·(t % 8) …` of the left array; the right window's block is rows `512·(t % 8) …`, columns `1024·((t / 8) % 4) …`
  of the right array. A run is eight consecutive points `8q … 8q + 7`, which share an output block: its first point
  resets the accumulator to zero and adds its block product, every later point adds its own. So after point `t` the
  accumulator holds, entry by entry, zero plus the sum of the block products of the points `8·(t / 8) … t`.
-/
import proofs.«151241_j18940805775747_1_alg».proof.Proof.Gen.KernelIdeal.Value
import proofs.«151241_j18940805775747_1_alg».proof.Proof.Pieces
import proofs.«151241_j18940805775747_1_alg».proof.Proof.Payload
import proofs.«151241_j18940805775747_1_alg».proof.Proof.LibBlockSum

noncomputable section

namespace Cert.KernelIdeal.Fold

open Cert.KernelIdeal Cert.KernelIdeal.Gen Cert.KernelIdeal.Payload Cert.QMatmul
open Idealize.ShloMosaic Idealize.ShloMosaic.TcCoe Idealize.ShloMosaic.ValueIdx Idealize.SL.Sem Finset

variable (m : (ℓ : Loc nD τ sig) → Buf (Elt Ideal) ℓ)

/-- The left and the right argument arrays on core `c`, as launched. -/
abbrev argX (c : Dev nD) : Idx4096 → BitVec 32 := m ((c : Thread nD τ).loc main_arg0)
abbrev argY (c : Dev nD) : Idx4096 → BitVec 32 := m ((c : Thread nD τ).loc main_arg1)

/-- The left window's block index at point `t`: (row block, contraction block). -/
theorem idx0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)

/-- The right window's block index at point `t`: (contraction block, column block). -/
theorem idx1 : ∀ t : Fin cfg0.N, win0_1.index t (0 : Fin 2) = t.val % 8 ∧ win0_1.index t (1 : Fin 2) = t.val / 8 % 4 :=
  (by decide +kernel : ∀ t : Fin grid0.N, win0_1.index t (0 : Fin 2) = t.val % 8 ∧ win0_1.index t (1 : Fin 2) = t.val / 8 % 4)

/-- An entry of the left block at `t` is the left array's entry `1024·(t / 32)` rows down, `512·(t % 8)` columns along. -/
theorem iblk0_apply (c : Dev nD) (t : Fin cfg0.N) (y : S1024x512.Idx) :
    (iblk m c 0 t : Vec Ideal S1024x512 .i32) y
      = at2 (argX m c) (1024 * (t.val / 32) + (y 0).val) (512 * (t.val % 8) + (y 1).val) := by
  obtain ⟨e0, e1⟩ := idx0 t
  unfold iblk
  rw [View.read_apply]
  show V m c main_arg0 _ = _
  refine (at2_idx (argX m c) _ _ _ ?_ ?_).symm
  · show _ = win0_0.index t (0 : Fin 2) * 1024 + 1 * (y 0).val
    rw [e0]; omega
  · show _ = win0_0.index t (1 : Fin 2) * 512 + 1 * (y 1).val
    rw [e1]; omega

/-- An entry of the right block at `t` is the right array's entry `512·(t % 8)` rows down, `1024·((t / 8) % 4)` columns along. -/
theorem iblk1_apply (c : Dev nD) (t : Fin cfg0.N) (y : S512x1024.Idx) :
    (iblk m c 1 t : Vec Ideal S512x1024 .i32) y
      = at2 (argY m c) (512 * (t.val % 8) + (y 0).val) (1024 * (t.val / 8 % 4) + (y 1).val) := by
  obtain ⟨e0, e1⟩ := idx1 t
  unfold iblk
  rw [View.read_apply]
  show V m c main_arg1 _ = _
  refine (at2_idx (argY m c) _ _ _ ?_ ?_).symm
  · show _ = win0_1.index t (0 : Fin 2) * 512 + 1 * (y 0).val
    rw [e0]; omega
  · show _ = win0_1.index t (1 : Fin 2) * 1024 + 1 * (y 1).val
    rw [e1]; omega

/-- WHAT POINT `n` ADDS to the accumulator: the product of its two dequantized input blocks (a function of every
    natural, zero past the grid, so that sums over points need no bounds). -/
def addend (c : Dev nD) (n : ℕ) (y : S1024x1024.Idx) : Ideal .f32 :=
  if h : n < cfg0.N then blockDot (iblk m c 0 ⟨n, h⟩) (iblk m c 1 ⟨n, h⟩) y else 0

/-- The same over the argument arrays: at `(p, q)` of the block, the 512 products of the point's contraction block,
    for row `1024·(n / 32) + p` and column `1024·((n / 8) % 4) + q`. -/
theorem addend_eq (c : Dev nD) (n : ℕ) (h : n < cfg0.N) (y : S1024x1024.Idx) :
    addend m c n y = ∑ k ∈ range 512, term (argX m c) (argY m c) (1024 * (n / 32) + (y 0).val)
      (1024 * (n / 8 % 4) + (y 1).val) (512 * (n % 8) + k) := by
  unfold addend
  rw [dif_pos h]
  unfold blockDot
  rw [← Cert.BlockSum.sum_fin_eq_range 512 (fun k => term (argX m c) (argY m c) (1024 * (n / 32) + (y 0).val)
      (1024 * (n / 8 % 4) + (y 1).val) (512 * (n % 8) + k))]
  refine Finset.sum_congr rfl fun k _ => ?_
  refine (congrArg₂ (fun a b => dqL a * dqR b) (iblk0_apply m c ⟨n, h⟩ (ix2 (y 0) k)) (iblk1_apply m c ⟨n, h⟩ (ix2 k (y 1)))).trans ?_
  rfl

/-- The first point of a run leaves zero plus its addend, whatever the accumulator held. -/
theorem step_first (c : Dev nD) (n : ℕ) (hb : n < cfg0.N) (h0 : n % 8 = 0) (acc : Vec Ideal S1024x1024 .f32)
    (y : S1024x1024.Idx) : Value.scAt0_0 m c n hb acc y = 0 + addend m c n y := by
  have h1 : ¬n % 8 = 7 := by omega
  unfold Value.scAt0_0
  rw [dif_pos h0, dif_neg h1]
  refine (congrFun (Pieces.acc_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) ((hcond0_0 ⟨n, hb⟩).mpr h0) (fun h => h1 ((hcond0_1 ⟨n, hb⟩).mp h)) (iblk m c 0 ⟨n, hb⟩) (iblk m c 1 ⟨n, hb⟩)) y).trans ?_
  refine (pay2_apply (iblk m c 0 ⟨n, hb⟩) (iblk m c 1 ⟨n, hb⟩) (k0_pay1 (F := Ideal)) y).trans ?_
  rw [pay1_apply]
  unfold addend
  rw [dif_pos hb]

/-- Every other point of a run leaves what the accumulator held plus its addend. -/
theorem step_next (c : Dev nD) (n : ℕ) (hb : n < cfg0.N) (h0 : ¬n % 8 = 0) (acc : Vec Ideal S1024x1024 .f32)
    (y : S1024x1024.Idx) : Value.scAt0_0 m c n hb acc y = acc y + addend m c n y := by
  unfold Value.scAt0_0
  rw [dif_neg h0]
  by_cases h1 : n % 8 = 7
  · rw [dif_pos h1]
    refine (congrFun (Pieces.acc_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) acc) y).trans ?_
    refine (pay2_apply (iblk m c 0 ⟨n, hb⟩) (iblk m c 1 ⟨n, hb⟩) acc y).trans ?_
    unfold addend
    rw [dif_pos hb]
  · rw [dif_neg h1]
    refine (congrFun (Pieces.acc_middle (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) acc) y).trans ?_
    refine (pay2_apply (iblk m c 0 ⟨n, hb⟩) (iblk m c 1 ⟨n, hb⟩) acc y).trans ?_
    unfold addend
    rw [dif_pos hb]

/-- THE ACCUMULATOR after point `t`, entry by entry: zero plus the addends of the points of `t`'s run up to `t`. -/
theorem scratch_eq (c : Dev nD) (t : Fin cfg0.N) (y : S1024x1024.Idx) :
    (outsAt0 m c t.val t.isLt).2 y = 0 + ∑ s ∈ range (t.val % 8 + 1), addend m c (8 * (t.val / 8) + s) y := by
  rw [Value.soutsAt0_0_eq m c t]
  exact Pipeline.accAt_add_apply _ _ (fun _ => 0) (addend m c) (8 * (t.val / 8)) 7
    (fun h i => step_first m c _ h (by omega) _ i)
    (fun n h acc i hlo hhi => step_next m c n h (by omega) acc i)
    (t.val % 8) (by omega) _ y

end Cert.KernelIdeal.Fold

end
-- ==== Proof.Final.lean ====
/-
  The result array after the run is the specification of the two argument arrays.

  The output block with block index `(t / 32, (t / 8) % 4)` is written back once, at the last point of its run
  (`t % 8 = 7`), where the body has just copied the accumulator into it. The accumulator there is the sum of the run's
  eight block products, and the eight contraction blocks of 512 places are the 4096 contraction indices, each once:
  so entry `(p, q)` of the block is `G` at row `1024·(t / 32) + p`, column `1024·((t / 8) % 4) + q`. The sixteen output
  blocks tile the [4096, 4096] result, so every index is written by the last point of exactly the run of its block.
-/
import proofs.«151241_j18940805775747_1_alg».proof.Proof.Fold

noncomputable section

namespace Cert.KernelIdeal.Final

open Cert.KernelIdeal Cert.KernelIdeal.Gen Cert.KernelIdeal.Fold Cert.QMatmul
open Idealize.ShloMosaic Idealize.ShloMosaic.TcCoe Idealize.SL.Sem Finset
open Idealize.ShloMosaic.Pipeline (Dat)

variable (m : (ℓ : Loc nD τ sig) → Buf (Elt Ideal) ℓ) (ρ : Dev nD → PrngReg)

/-- The output window's block index at point `t`: (row block, column block). -/
theorem idx2 : ∀ t : Fin cfg0.N, win0_2.index t (0 : Fin 2) = t.val / 32 ∧ win0_2.index t (1 : Fin 2) = t.val / 8 % 4 :=
  (by decide +kernel : ∀ t : Fin grid0.N, win0_2.index t (0 : Fin 2) = t.val / 32 ∧ win0_2.index t (1 : Fin 2) = t.val / 8 % 4)

/-- What the result array holds after the run. -/
abbrev result (c : Dev nD) : Buf (Elt Ideal) ((c : Thread nD τ).loc main_v0) := G (argX m c) (argY m c)

/-- At the last point of a run the output block's buffer holds what the accumulator holds. -/
theorem out_eq_acc (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  refine (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2).trans ?_
  exact (Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2).symm

/-- THE BLOCK a run's last point writes back, entry by entry: the whole contraction sum for the entry's row and
    column in the arrays — the run's eight addends of 512 products are the 4096 products, block by block. -/
theorem block_eq (c : Dev nD) (t : Fin cfg0.N) (h7 : t.val % 8 = 7) (y : S1024x1024.Idx) :
    (outsAt0 m c t.val t.isLt).1 y = ∑ K ∈ range 4096, term (argX m c) (argY m c)
      (1024 * (t.val / 32) + (y 0).val) (1024 * (t.val / 8 % 4) + (y 1).val) K := by
  have hN : cfg0.N = 128 := N_0
  have ht := t.isLt
  rw [out_eq_acc m c t h7, scratch_eq m c t y, h7, zero_add]
  refine Eq.trans ?_ (Cert.BlockSum.sum_range_blocks 512 (fun K => term (argX m c) (argY m c)
    (1024 * (t.val / 32) + (y 0).val) (1024 * (t.val / 8 % 4) + (y 1).val) K) 8)
  refine Finset.sum_congr rfl fun s hs => ?_
  have hs' : s < 8 := Finset.mem_range.mp hs
  have e1 : (8 * (t.val / 8) + s) / 32 = t.val / 32 := by omega
  have e2 : (8 * (t.val / 8) + s) / 8 % 4 = t.val / 8 % 4 := by omega
  have e3 : (8 * (t.val / 8) + s) % 8 = s := by omega
  rw [addend_eq m c _ (by omega) y, e1, e2, e3]

/-- WHAT A WRITING POINT WRITES BACK is its block of `G` of the argument arrays. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  obtain ⟨e0, e1⟩ := idx2 t
  rw [Value.flushed2]
  funext y
  show (outsAt0 m c t.val t.isLt).1 y = G (argX m c) (argY m c) (((cfg0.win 2).blk t).view.emb y)
  rw [block_eq m c t h7 y]
  unfold G
  have r0 : ((((cfg0.win 2).blk t).view.emb y) 0).val = 1024 * (t.val / 32) + (y 0).val := by
    show win0_2.index t (0 : Fin 2) * 1024 + 1 * (y 0).val = _
    rw [e0]; omega
  have r1 : ((((cfg0.win 2).blk t).view.emb y) 1).val = 1024 * (t.val / 8 % 4) + (y 1).val := by
    show win0_2.index t (1 : Fin 2) * 1024 + 1 * (y 1).val = _
    rw [e1]; omega
  rw [r0, r1]

/-- An index of the result is in point `t`'s block iff each coordinate is in the block's range on its axis. -/
theorem mem_blk (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result is written back: by the last point of the run of its block. -/
theorem cover (i : S4096x4096.Idx) :
    ∃ t : Fin cfg0.N, (cfg0.win 2).flush t = true ∧ i ∈ ((cfg0.win 2).blk t).view.set := by
  have hN : cfg0.N = 128 := N_0
  have hi0 : (i 0).val < 4096 := (i 0).isLt
  have hi1 : (i 1).val < 4096 := (i 1).isLt
  obtain ⟨t, ht⟩ : ∃ t : Fin cfg0.N, t.val = 32 * ((i 0).val / 1024) + 8 * ((i 1).val / 1024) + 7 :=
    ⟨⟨32 * ((i 0).val / 1024) + 8 * ((i 1).val / 1024) + 7, by rw [hN]; omega⟩, rfl⟩
  obtain ⟨e0, e1⟩ := idx2 t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1024 ≤ (i 1).val ∧ (i 1).val < win0_2.index t (1 : Fin 2) * 1024 + 1024
    rw [e1]; omega

/-- THE RESULT ARRAY after the run is `G` of the argument arrays. -/
theorem final (c : Dev nD) : (dats m 0 c).arrAt 2 cfg0.N = result m c :=
  (dats m 0 c).arrAt_eq_of_cover 2 (result m c) (flushed_eq m c) cover

/-- The kernel's run, read: every weakly fair execution terminates with the result array at `G` of the argument
    arrays and the argument arrays unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.lean ====
/-
  A quantized matrix product against its plain reference, over the extended reals.

  Both programs take two [4096, 4096] arrays of 32-bit integers, dequantize them entry by entry —
  `(x − (−66)) · 0.03` on the left, `(y − 160) · 0.025` on the right, the same four f32 constants on both sides — and
  multiply the two dequantized matrices. The reference does it with one product over the whole arrays. The kernel walks
  a 4 × 4 × 8 grid: for each of the sixteen [1024, 1024] output blocks it visits the eight contraction blocks of 512
  places in order, resets an accumulator at the first, adds the product of the two dequantized input blocks at each,
  and copies the accumulator into the output block at the last, where the block is written back. The operands'
  change of format before the matrix unit is the identity on the extended reals.

  So entry `(r, c)` of the kernel's result is `0 + ∑_{s < 8} ∑_{k < 512} a[r, 512 s + k] · b[512 s + k, c]` and of the
  reference's `∑_{K < 4096} a[r, K] · b[K, c]`, with `a`, `b` the dequantized arrays: equal because addition of
  extended reals is commutative and associative (no distributivity and no finiteness is used, and the arguments being
  integers the claim has no precondition). The ideal pass rewrote nothing, so the idealization conjunct is trivial.

  The three frames and the kernel's run with its accumulator's fold come from the generated modules; the reference's
  run and its read-at-an-index lemmas likewise. Written in the modules beside this file: the specification `G`
  (Spec), the block-by-block sum (LibBlockSum), the reference's last stage as `G` (RefIsG), the body's arithmetic at an
  index (Payload), what each control case leaves (Pieces), the accumulator after any point as a sum over its run
  (Fold), and the result array as `G` (Final).
-/
import proofs.«151241_j18940805775747_1_alg».proof.Defs
import proofs.«151241_j18940805775747_1_alg».proof.Proof.Gen.Kernel
import proofs.«151241_j18940805775747_1_alg».proof.Proof.Gen.Kernel.Skeleton
import proofs.«151241_j18940805775747_1_alg».proof.Proof.Gen.Kernel.Launch
import proofs.«151241_j18940805775747_1_alg».proof.Proof.Gen.Kernel.Points
import proofs.«151241_j18940805775747_1_alg».proof.Proof.Gen.Kernel.Frame
import proofs.«151241_j18940805775747_1_alg».proof.Proof.Gen.KernelIdeal
import proofs.«151241_j18940805775747_1_alg».proof.Proof.Gen.KernelIdeal.Skeleton
import proofs.«151241_j18940805775747_1_alg».proof.Proof.Gen.KernelIdeal.Launch
import proofs.«151241_j18940805775747_1_alg».proof.Proof.Gen.KernelIdeal.Points
import proofs.«151241_j18940805775747_1_alg».proof.Proof.Gen.KernelIdeal.Frame
import proofs.«151241_j18940805775747_1_alg».proof.Proof.Gen.ReferenceIdeal
import proofs.«151241_j18940805775747_1_alg».proof.Proof.Gen.KernelIdeal.Value
import proofs.«151241_j18940805775747_1_alg».proof.Proof.Gen.ReferenceIdeal.Run
import proofs.«151241_j18940805775747_1_alg».proof.Proof.Gen.ReferenceIdeal.Read
import proofs.«151241_j18940805775747_1_alg».proof.Proof.RefIsG
import proofs.«151241_j18940805775747_1_alg».proof.Proof.Final
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories that agree on the two arguments, the kernel's result array ends at `G` of
    its arguments and the reference's last stage is `G` of its own: the same array. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq_G, (hagree c).1, (hagree c).2]

theorem claim : Cert.Claim := ⟨Cert.Kernel.Gen.facts, Cert.KernelIdeal.Gen.facts, Cert.ReferenceIdeal.Gen.facts,
  frame_k, frame_ki, frame_ri, trivial, algebraic⟩

end Cert.Proof

end
